-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x16x4 : Shape := ⟨3, ![10000, 16, 4]⟩
abbrev S4x16x16 : Shape := ⟨3, ![4, 16, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x16x4 : S_.BroadcastsInDim S10000x16x4 (![] : Fin 0 → Fin S10000x16x4.rank)
  reducesTo_S10000x16x4_S_d0_1_2 : S10000x16x4.ReducesTo [0, 1, 2] S_
  bcast_S_S4x16x16 : S_.BroadcastsInDim S4x16x16 (![] : Fin 0 → Fin S4x16x16.rank)
  reducesTo_S4x16x16_S_d0_1_2 : S4x16x16.ReducesTo [0, 1, 2] S_

variable [Facts]

def fn {F : FTy → Type} [FloatOps F] (main_arg0 : FVec F S10000x10000 .f32) (main_arg1 : FVec F S10000x16x4 .f32) (main_arg2 : FVec F S4x16x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x16x4 .f32 := Host.absf main_arg1
  let main_cst_0 : FVec F S_ .f32 := constant S_ .f32 0x7F800000#32
  let main_v5 : FVec F S10000x16x4 .f32 := broadcastInDim S10000x16x4 ![] bcast_S_S10000x16x4 main_cst_0
  let main_v6 : IVec S10000x16x4 1 := cmpf .olt main_v4 main_v5
  let main_c_1 : IVec S_ 1 := constantI S_ 1 1#1
  let main_v7 : IVec S_ 1 := (fun x v => Host.reduce IntOp.andi x v reducesTo_S10000x16x4_S_d0_1_2 h_S_) main_v6 main_c_1
  let main_v8 : IVec S_ 1 := andi main_v3 main_v7
  let main_v9 : FVec F S4x16x16 .f32 := Host.absf main_arg2
  let main_cst_2 : FVec F S_ .f32 := constant S_ .f32 0x7F800000#32
  let main_v10 : FVec F S4x16x16 .f32 := broadcastInDim S4x16x16 ![] bcast_S_S4x16x16 main_cst_2
  let main_v11 : IVec S4x16x16 1 := cmpf .olt main_v9 main_v10
  let main_c_3 : IVec S_ 1 := constantI S_ 1 1#1
  let main_v12 : IVec S_ 1 := (fun x v => Host.reduce IntOp.andi x v reducesTo_S4x16x16_S_d0_1_2 h_S_) main_v11 main_c_3
  let main_v13 : IVec S_ 1 := andi main_v8 main_v12
  main_v13
-- ==== Kernel.lean ====
abbrev S10000x10000 : Shape := ⟨2, ![10000, 10000]⟩
abbrev S10000x16x4 : Shape := ⟨3, ![10000, 16, 4]⟩
abbrev S4x16x16 : Shape := ⟨3, ![4, 16, 16]⟩
abbrev S10000x64 : Shape := ⟨2, ![10000, 64]⟩
abbrev S10000x16 : Shape := ⟨2, ![10000, 16]⟩
abbrev S400x10000 : Shape := ⟨2, ![400, 10000]⟩
abbrev S400x16 : Shape := ⟨2, ![400, 16]⟩
abbrev S16x4x16 : Shape := ⟨3, ![16, 4, 16]⟩
abbrev S64x16 : Shape := ⟨2, ![64, 16]⟩

abbrev nBuf : Space → Nat
  | .hbm => 5
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x16x4, .f32⟩
  | .hbm, ⟨2, _⟩ => ⟨S4x16x16, .f32⟩
  | .hbm, ⟨3, _⟩ => ⟨S10000x64, .f32⟩
  | .hbm, ⟨4, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x64, .f32⟩
  | .local _ .vmem, ⟨3, _⟩ => ⟨S4x16x16, .f32⟩
  | .local _ .vmem, ⟨4, _⟩ => ⟨S400x16, .f32⟩
  | .local _ .vmem, ⟨5, _⟩ => ⟨S400x16, .f32⟩
  | .local _ .vmem, ⟨6, _⟩ => ⟨S10000x16, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S10000x16x4_S10000x64 : S10000x16x4.ShapeCasts S10000x64
  inb_S4x16x16_S4x16x16_0_0_0 : ∀ a, (![0, 0, 0] : Fin 3 → Nat) a + S4x16x16.size a ≤ S4x16x16.size a
  h_S4x16x16 : 0 < S4x16x16.numel
  transposes_S4x16x16_p1_0_2_S16x4x16 : S4x16x16.Transposes [1, 0, 2] S16x4x16
  shapeCasts_S16x4x16_S64x16 : S16x4x16.ShapeCasts S64x16
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S400x16_S400x16_0_0 : ∀ a, (![0, 0] : Fin 2 → Nat) a + S400x16.size a ≤ S400x16.size a
  h_S400x16 : 0 < S400x16.numel
  dot_S10000x64_S64x16_S10000x16_1_0_0_1_n_n_wf : DotDims.WF S10000x64 S64x16 S10000x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x16x16.size a ≤ S4x16x16.size a
  hwx0_2 : ∀ i : grid0.Coords, EltTy.bits .f32 = 32 ∨ (Rect.block (s := S4x16x16) S4x16x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x16.size a ≤ S10000x16.size a
  hwx0_3 : ∀ i : grid0.Coords, EltTy.bits .f32 = 32 ∨ (Rect.block (s := S10000x16) S400x16.size (cc0_transform_3 i) (hinb0_3 i)).WholeWords (EltTy.packing .f32)

variable [Facts₀]

def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x16x4 : Shape := ⟨3, ![10000, 16, 4]⟩
abbrev S4x16x16 : Shape := ⟨3, ![4, 16, 16]⟩
abbrev S64x16 : Shape := ⟨2, ![64, 16]⟩
abbrev S10000x16x1 : Shape := ⟨3, ![10000, 16, 1]⟩
abbrev S10000x16 : Shape := ⟨2, ![10000, 16]⟩
abbrev S10000x64 : Shape := ⟨2, ![10000, 64]⟩

abbrev nBuf : Space → Nat
  | .hbm => 18
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x16x4, .f32⟩
  | .hbm, ⟨2, _⟩ => ⟨S4x16x16, .f32⟩
  | .hbm, ⟨3, _⟩ => ⟨S64x16, .f32⟩
  | .hbm, ⟨4, _⟩ => ⟨S10000x16x1, .f32⟩
  | .hbm, ⟨5, _⟩ => ⟨S10000x16, .f32⟩
  | .hbm, ⟨6, _⟩ => ⟨S10000x16, .f32⟩
  | .hbm, ⟨7, _⟩ => ⟨S10000x16x1, .f32⟩
  | .hbm, ⟨8, _⟩ => ⟨S10000x16, .f32⟩
  | .hbm, ⟨9, _⟩ => ⟨S10000x16, .f32⟩
  | .hbm, ⟨10, _⟩ => ⟨S10000x16x1, .f32⟩
  | .hbm, ⟨11, _⟩ => ⟨S10000x16, .f32⟩
  | .hbm, ⟨12, _⟩ => ⟨S10000x16, .f32⟩
  | .hbm, ⟨13, _⟩ => ⟨S10000x16x1, .f32⟩
  | .hbm, ⟨14, _⟩ => ⟨S10000x16, .f32⟩
  | .hbm, ⟨15, _⟩ => ⟨S10000x16, .f32⟩
  | .hbm, ⟨16, _⟩ => ⟨S10000x64, .f32⟩
  | .hbm, ⟨17, _⟩ => ⟨S10000x16, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]

class Facts₀ : Prop where
  shapeCasts_S4x16x16_S64x16 : S4x16x16.ShapeCasts S64x16
  slices_S10000x16x4_S10000x16x1_0_0_0 : S10000x16x4.Slices ![0, 0, 0] S10000x16x1
  shapeCasts_S10000x16x1_S10000x16 : S10000x16x1.ShapeCasts S10000x16
  slices_S10000x16x4_S10000x16x1_0_0_1 : S10000x16x4.Slices ![0, 0, 1] S10000x16x1
  slices_S10000x16x4_S10000x16x1_0_0_2 : S10000x16x4.Slices ![0, 0, 2] S10000x16x1
  slices_S10000x16x4_S10000x16x1_0_0_3 : S10000x16x4.Slices ![0, 0, 3] S10000x16x1
  concatenates_S10000x16_S10000x16_S10000x16_S10000x16_S10000x64_d1 : Shape.Concatenates [S10000x16, S10000x16, S10000x16, S10000x16] S10000x64 1
  dot_S10000x10000_S10000x16_S10000x16_1_0_0_1_n_n_wf : DotDims.WF S10000x10000 S10000x16 S10000x16 [1] [0] [0] [1] [] []
  dot_S10000x64_S64x16_S10000x16_1_0_0_1_n_n_wf : DotDims.WF S10000x64 S64x16 S10000x16 [1] [0] [0] [1] [] []

variable [Facts₀]

def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

class Facts : Prop extends Facts₀ where

variable [Facts]
-- ==== Proof.Pieces.lean ====
/-
  What one grid point's body leaves behind, as the body's arithmetic.

  The body has two stores. At the first grid point it stores, whole, into the scratch buffer the
  product `B` of the flattened node features with the re-laid weights (the first payload), reads
  that buffer back, and stores into its output block the product of its block of rows of `a` with
  `B` (the second payload). At every later point the scratch buffer still holds what the point
  before left, and the body only stores the product of its rows of `a` with that. Each buffer is
  covered by one store through the whole-buffer rectangle, so its contents afterwards are that
  store's payload, and every load reads a whole buffer, so it reads the buffer's contents.
-/
import proofs.«123603_g5995774345542_cont_9to1_m_477_22_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The whole-buffer rectangle's offsets, rank 2 and rank 3, are zero on every axis. -/
theorem zero2 : (![0, 0] : Fin 2 → Nat) = fun _ => 0 := funext fun a => by fin_cases a <;> rfl
theorem zero3 : (![0, 0, 0] : Fin 3 → Nat) = fun _ => 0 := funext fun a => by fin_cases a <;> rfl

/-- At the first grid point the scratch buffer is left holding the first payload: the flattened
    node features times the re-laid weights. -/
theorem scratch_first (c : Dev nD) (i : grid0.Coords) (a1 : Memref sig .tc .vmem S400x10000 .f32) (h1 : a1.IsWhole)
    (a2 : Memref sig .tc .vmem S10000x64 .f32) (h2 : a2.IsWhole) (a3 : Memref sig .tc .vmem S4x16x16 .f32) (h3 : a3.IsWhole)
    (a4 : Memref sig .tc .vmem S400x16 .f32) (h4 : a4.IsWhole) (a5 : Memref sig .tc .vmem S10000x16 .f32) (h5 : a5.IsWhole)
    (hc : cond0_0 i) (x0 : Vec F S400x10000 .f32) (x1 : Vec F S10000x64 .f32) (x2 : Vec F S4x16x16 .f32) :
    sout0_A_0 c i a1 h1 a2 h2 a3 h3 a4 h4 a5 h5 hc x0 x1 x2 = k0_pay1 x2 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero zero2]
  simp only [View.readAt_eq_ld, h2.read_unread, h3.read_unread, View.ld_unit_zero (S := S10000x64) zero2,
    View.ld_unit_zero (S := S4x16x16) zero3]

/-- At the first grid point the output block is left holding the second payload of the rows of `a`
    and the first payload, which the body has just stored into the scratch buffer and read back. -/
theorem block_first (c : Dev nD) (i : grid0.Coords) (a1 : Memref sig .tc .vmem S400x10000 .f32) (h1 : a1.IsWhole)
    (a2 : Memref sig .tc .vmem S10000x64 .f32) (h2 : a2.IsWhole) (a3 : Memref sig .tc .vmem S4x16x16 .f32) (h3 : a3.IsWhole)
    (a4 : Memref sig .tc .vmem S400x16 .f32) (h4 : a4.IsWhole) (a5 : Memref sig .tc .vmem S10000x16 .f32) (h5 : a5.IsWhole)
    (hc : cond0_0 i) (x0 : Vec F S400x10000 .f32) (x1 : Vec F S10000x64 .f32) (x2 : Vec F S4x16x16 .f32) :
    out0_A_3 c i a1 h1 a2 h2 a3 h3 a4 h4 a5 h5 hc x0 x1 x2 = k0_pay2 x0 (k0_pay1 x2 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero zero2, View.readCov_unit_zero (S := S10000x16) _ zero2]
  simp only [View.readAt_eq_ld, h1.read_unread, h2.read_unread, h3.read_unread, View.ld_unit_zero (S := S400x10000) zero2,
    View.ld_unit_zero (S := S10000x64) zero2, View.ld_unit_zero (S := S4x16x16) zero3]

/-- At a later grid point, with the scratch buffer holding `xs`, the output block is left holding
    the second payload of the rows of `a` and `xs`. -/
theorem block_later (c : Dev nD) (i : grid0.Coords) (a1 : Memref sig .tc .vmem S400x10000 .f32) (h1 : a1.IsWhole)
    (a2 : Memref sig .tc .vmem S10000x64 .f32) (h2 : a2.IsWhole) (a3 : Memref sig .tc .vmem S4x16x16 .f32) (h3 : a3.IsWhole)
    (a4 : Memref sig .tc .vmem S400x16 .f32) (h4 : a4.IsWhole) (a5 : Memref sig .tc .vmem S10000x16 .f32) (h5 : a5.IsWhole)
    (hc : ¬cond0_0 i) (x0 : Vec F S400x10000 .f32) (x1 : Vec F S10000x64 .f32) (x2 : Vec F S4x16x16 .f32) (xs : Vec F S10000x16 .f32) :
    out0_B_3 c i a1 h1 a2 h2 a3 h3 a4 h4 a5 h5 hc x0 x1 x2 xs = k0_pay2 x0 xs := by
  unfold out0_B_3
  rw [View.read_writes_eq_canon _ _ _ (cover0_B_3 c i a1 h1 a2 h2 a3 h3 a4 h4 a5 h5 hc x0 x1 x2 xs)]
  unfold kernelRun0_B
  dsimp only
  rw [View.canon_unit_zero zero2]
  simp only [View.readAt_eq_ld, h1.read_unread, h5.read_unread, View.ld_unit_zero (S := S400x10000) zero2,
    View.ld_unit_zero (S := S10000x16) zero2]

end Cert.KernelIdeal.Pieces

end
-- ==== Proof.Algebra.lean ====
/-
  The law that joins the two programs, over the extended reals.

  A node's new feature is a sum over relations `r` and input features `i` of its aggregated
  neighbour feature times a weight. One program aggregates first — for each column `(r, i)` the sum
  over the nodes `k` of `a k * x k i r` — and then contracts the 64 columns with the weights; the
  other contracts each node's 64 columns with the weights first and aggregates afterwards. The two
  are one number when every factor is a real: products distribute over the finite sums and the two
  sums commute. (With an infinite factor the extended reals do not distribute, so finiteness is
  asked.) The programs also lay the 64 columns out in different orders, relation-major `r * 16 + i`
  against feature-major `i * 4 + r`; the sum over the columns does not see the order.
-/
import Mathlib.Data.EReal.Basic
import Mathlib.Algebra.BigOperators.Fin
import Mathlib.Tactic.Ring

open scoped BigOperators

namespace Cert.RelSum

/-- A finite sum of reals, read in the extended reals, is the sum of the summands read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Aggregate-then-contract is contract-then-aggregate, for real factors: over any finite column
    type, `∑ c, (∑ k, a k * x k c) * w c = ∑ k, a k * ∑ c, x k c * w c`. -/
theorem sum_mul_swap {K C : Type*} [Fintype K] [Fintype C] (a : K → EReal) (x : K → C → EReal) (w : C → EReal)
    (ha : ∀ k, ∃ r : ℝ, a k = r) (hx : ∀ k c, ∃ r : ℝ, x k c = r) (hw : ∀ c, ∃ r : ℝ, w c = r) :
    ∑ c, (∑ k, a k * x k c) * w c = ∑ k, a k * ∑ c, x k c * w c := by
  choose a' ha' using ha
  choose x' hx' using hx
  choose w' hw' using hw
  simp only [ha', hx', hw', ← EReal.coe_mul, ← coe_sum]
  refine congrArg _ ?_
  simp only [Finset.sum_mul, Finset.mul_sum]
  rw [Finset.sum_comm]
  exact Finset.sum_congr rfl fun k _ => Finset.sum_congr rfl fun c _ => by ring

/-! ## The two orders of the 64 columns -/

/-- Column `c` of the relation-major order `r * 16 + i`: its input feature `i = c % 16`. -/
abbrev relFeat (c : Fin 64) : Fin 16 := ⟨c.val % 16, Nat.mod_lt _ (by decide)⟩
/-- Column `c` of the relation-major order `r * 16 + i`: its relation `r = c / 16`. -/
abbrev relRel (c : Fin 64) : Fin 4 := ⟨c.val / 16, by have := c.isLt; omega⟩
/-- Column `c` of the feature-major order `i * 4 + r`: its input feature `i = c / 4`. -/
abbrev featFeat (c : Fin 64) : Fin 16 := ⟨c.val / 4, by have := c.isLt; omega⟩
/-- Column `c` of the feature-major order `i * 4 + r`: its relation `r = c % 4`. -/
abbrev featRel (c : Fin 64) : Fin 4 := ⟨c.val % 4, Nat.mod_lt _ (by decide)⟩

/-- The relation-major column `r * 16 + i` is the feature-major column `i * 4 + r`. -/
def relToFeat : Fin 64 ≃ Fin 64 where
  toFun c := ⟨(c.val % 16) * 4 + c.val / 16, by have := c.isLt; omega⟩
  invFun c := ⟨(c.val % 4) * 16 + c.val / 4, by have := c.isLt; omega⟩
  left_inv c := Fin.ext (by have := c.isLt; show (((c.val % 16) * 4 + c.val / 16) % 4) * 16 + ((c.val % 16) * 4 + c.val / 16) / 4 = c.val; omega)
  right_inv c := Fin.ext (by have := c.isLt; show (((c.val % 4) * 16 + c.val / 4) % 16) * 4 + ((c.val % 4) * 16 + c.val / 4) / 16 = c.val; omega)

theorem featFeat_relToFeat (c : Fin 64) : featFeat (relToFeat c) = relFeat c :=
  Fin.ext (by have := c.isLt; show ((c.val % 16) * 4 + c.val / 16) / 4 = c.val % 16; omega)
theorem featRel_relToFeat (c : Fin 64) : featRel (relToFeat c) = relRel c :=
  Fin.ext (by have := c.isLt; show ((c.val % 16) * 4 + c.val / 16) % 4 = c.val / 16; omega)

/-- THE LAW. With real factors, the relation-major aggregate-then-contract sum is the feature-major
    contract-then-aggregate sum. -/
theorem aggregate_contract {K : Type*} [Fintype K] (a : K → EReal) (x : K → Fin 16 → Fin 4 → EReal) (w : Fin 4 → Fin 16 → EReal)
    (ha : ∀ k, ∃ r : ℝ, a k = r) (hx : ∀ k i r, ∃ s : ℝ, x k i r = s) (hw : ∀ r i, ∃ s : ℝ, w r i = s) :
    ∑ c : Fin 64, (∑ k, a k * x k (relFeat c) (relRel c)) * w (relRel c) (relFeat c)
      = ∑ k, a k * ∑ c : Fin 64, x k (featFeat c) (featRel c) * w (featRel c) (featFeat c) := by
  rw [sum_mul_swap a (fun k c => x k (relFeat c) (relRel c)) (fun c => w (relRel c) (relFeat c)) ha
    (fun k c => hx k _ _) (fun c => hw _ _)]
  refine Finset.sum_congr rfl fun k _ => congrArg (a k * ·) ?_
  rw [← Equiv.sum_comp relToFeat (fun c => x k (featFeat c) (featRel c) * w (featRel c) (featFeat c))]
  exact Finset.sum_congr rfl fun c _ => by rw [featFeat_relToFeat, featRel_relToFeat]

end Cert.RelSum
-- ==== Proof.Spec.lean ====
/-
  The layer, as one function of the three argument arrays.

  `a` is the dense 10000 × 10000 adjacency, `x` the node features 10000 × 16 × 4 (node, input
  feature, relation), `w` the weights 4 × 16 × 16 (relation, input feature, output feature). The
  layer's output at node `n` and output feature `o` is

      ∑ k, a n k * (∑ over the 64 pairs (i, r), x k i r * w r i o),

  written here with the 64 pairs in feature-major order `c = i * 4 + r` (so `i = c / 4`, `r = c % 4`),
  the order in which a node's 16 × 4 features lie flattened in memory.
-/
import proofs.«123603_g5995774345542_cont_9to1_m_477_22_alg».proof.Proof.Algebra
import Idealize.ShloMosaic.Lib.ValueIdx

noncomputable section

open scoped BigOperators

namespace Cert.RelSum

open Idealize.ShloMosaic Idealize.ShloMosaic.ValueIdx

/-- Node `k`'s 64 feature-relation entries contracted with the weights of output feature `o`. -/
def contracted (X : (⟨3, ![10000, 16, 4]⟩ : Shape).Idx → EReal) (W : (⟨3, ![4, 16, 16]⟩ : Shape).Idx → EReal)
    (k : Fin 10000) (o : Fin 16) : EReal :=
  ∑ c : Fin 64, X (ix3 k (featFeat c) (featRel c)) * W (ix3 (featRel c) (featFeat c) o)

/-- The layer's output at node `n`, output feature `o`: row `n` of `a` against the contracted features. -/
def layerAt (A : (⟨2, ![10000, 10000]⟩ : Shape).Idx → EReal) (X : (⟨3, ![10000, 16, 4]⟩ : Shape).Idx → EReal)
    (W : (⟨3, ![4, 16, 16]⟩ : Shape).Idx → EReal) (n : Fin 10000) (o : Fin 16) : EReal :=
  ∑ k : Fin 10000, A (ix2 n k) * contracted X W k o

/-- The layer's output array. -/
def layer (A : (⟨2, ![10000, 10000]⟩ : Shape).Idx → EReal) (X : (⟨3, ![10000, 16, 4]⟩ : Shape).Idx → EReal)
    (W : (⟨3, ![4, 16, 16]⟩ : Shape).Idx → EReal) : (⟨2, ![10000, 16]⟩ : Shape).Idx → EReal :=
  fun j => layerAt A X W (j 0) (j 1)

/-- The output array at an index whose coordinates are `n` and `o`. -/
theorem layer_apply (A : (⟨2, ![10000, 10000]⟩ : Shape).Idx → EReal) (X : (⟨3, ![10000, 16, 4]⟩ : Shape).Idx → EReal)
    (W : (⟨3, ![4, 16, 16]⟩ : Shape).Idx → EReal) (j : (⟨2, ![10000, 16]⟩ : Shape).Idx) (n : Fin 10000) (o : Fin 16)
    (h0 : (j 0).val = n.val) (h1 : (j 1).val = o.val) : layer A X W j = layerAt A X W n o := by
  have e0 : (j 0 : Fin 10000) = n := Fin.ext h0
  have e1 : (j 1 : Fin 16) = o := Fin.ext h1
  show layerAt A X W (j 0) (j 1) = _
  rw [e0, e1]

end Cert.RelSum

end
-- ==== Proof.Payload.lean ====
/-
  The body's two payloads, read at an index, at the ideal values.

  Both are matrix products into a zero accumulator, so an entry is the plain sum over the
  contracted axis of the operands' products. The first payload's right operand is the weights
  re-laid: transposed to (input feature, relation, output feature) and flattened to 64 rows, so
  row `c` is the pair `i = c / 4`, `r = c % 4` — the order in which a node's features lie
  flattened in the left operand.
-/
import proofs.«123603_g5995774345542_cont_9to1_m_477_22_alg».proof.Proof.Gen.KernelIdeal.Skeleton
import proofs.«123603_g5995774345542_cont_9to1_m_477_22_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open scoped BigOperators

namespace Cert.KernelIdeal.Payload

open Cert.KernelIdeal Cert.KernelIdeal.Gen Idealize.ShloMosaic.ValueIdx Cert.RelSum

/-! ## The operand indices of the two products -/

theorem rows_lhs_0 (i : S400x16.Idx) (q : dot_S400x10000_S10000x16_S400x16_1_0_0_1_n_n.contr.Idx) : (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem rows_lhs_1 (i : S400x16.Idx) (q : dot_S400x10000_S10000x16_S400x16_1_0_0_1_n_n.contr.Idx) : (dot_S400x10000_S10000x16_S400x16_1_0_0_1_n_n.lhsIdx i q 1).val = (q ⟨0, by decide⟩).val :=
  dot_S400x10000_S10000x16_S400x16_1_0_0_1_n_n.lhsIdx_val_of_single rfl i q
theorem rows_rhs_0 (i : S400x16.Idx) (q : dot_S400x10000_S10000x16_S400x16_1_0_0_1_n_n.contr.Idx) : (dot_S400x10000_S10000x16_S400x16_1_0_0_1_n_n.rhsIdx i q 0).val = (q ⟨0, by decide⟩).val :=
  dot_S400x10000_S10000x16_S400x16_1_0_0_1_n_n.rhsIdx_val_of_single rfl i q
theorem rows_rhs_1 (i : S400x16.Idx) (q : dot_S400x10000_S10000x16_S400x16_1_0_0_1_n_n.contr.Idx) : (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

theorem feat_lhs_0 (i : S10000x16.Idx) (q : dot_S10000x64_S64x16_S10000x16_1_0_0_1_n_n.contr.Idx) : (dot_S10000x64_S64x16_S10000x16_1_0_0_1_n_n.lhsIdx i q 0).val = (i 0).val := by
  unfold DotDims.lhsIdx
  rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
  rfl
theorem feat_lhs_1 (i : S10000x16.Idx) (q : dot_S10000x64_S64x16_S10000x16_1_0_0_1_n_n.contr.Idx) : (dot_S10000x64_S64x16_S10000x16_1_0_0_1_n_n.lhsIdx i q 1).val = (q ⟨0, by decide⟩).val :=
  dot_S10000x64_S64x16_S10000x16_1_0_0_1_n_n.lhsIdx_val_of_single rfl i q
theorem feat_rhs_0 (i : S10000x16.Idx) (q : dot_S10000x64_S64x16_S10000x16_1_0_0_1_n_n.contr.Idx) : (dot_S10000x64_S64x16_S10000x16_1_0_0_1_n_n.rhsIdx i q 0).val = (q ⟨0, by decide⟩).val :=
  dot_S10000x64_S64x16_S10000x16_1_0_0_1_n_n.rhsIdx_val_of_single rfl i q
theorem feat_rhs_1 (i : S10000x16.Idx) (q : dot_S10000x64_S64x16_S10000x16_1_0_0_1_n_n.contr.Idx) : (dot_S10000x64_S64x16_S10000x16_1_0_0_1_n_n.rhsIdx i q 1).val = (i 1).val := by
  unfold DotDims.rhsIdx
  rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
  rfl

/-! ## The payloads at an index -/

/-- The second payload: entry `(y, o)` of a block of rows `a` times `b` is `∑ k, a y k * b k o`. -/
theorem rows_product (a : FVec Ideal S400x10000 .f32) (b : FVec Ideal S10000x16 .f32) (y : Fin 400) (o : Fin 16) :
    k0_pay2 (F := Ideal) a b (ix2 y o) = ∑ k : Fin 10000, a (ix2 y k) * b (ix2 k o) := by
  unfold k0_pay2
  refine (Ideal.matmul_constant_zero_apply dot_S400x10000_S10000x16_S400x16_1_0_0_1_n_n none a b (ix2 y o)).trans ?_
  rw [← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 y o) ((contrEquiv1 dot_S400x10000_S10000x16_S400x16_1_0_0_1_n_n 10000 rfl rfl).symm k) = ix2 y k := funext fun d => Fin.ext (by
    match d with
    | ⟨0, _⟩ => exact rows_lhs_0 _ _
    | ⟨1, _⟩ => exact (rows_lhs_1 _ _).trans hk)
  have er : dot_S400x10000_S10000x16_S400x16_1_0_0_1_n_n.rhsIdx (ix2 y o) ((contrEquiv1 dot_S400x10000_S10000x16_S400x16_1_0_0_1_n_n 10000 rfl rfl).symm k) = ix2 k o := funext fun d => Fin.ext (by
    match d with
    | ⟨0, _⟩ => exact (rows_rhs_0 _ _).trans hk
    | ⟨1, _⟩ => exact rows_rhs_1 _ _)
  rw [el, er]

/-- The first payload: entry `(k, o)` of the flattened features `x` times the re-laid weights `w` is the
    sum over the 64 pairs `c = i * 4 + r` of `x k c * w r i o`. -/
theorem features_product (w : FVec Ideal S4x16x16 .f32) (x : FVec Ideal S10000x64 .f32) (k : Fin 10000) (o : Fin 16) :
    k0_pay1 (F := Ideal) w x (ix2 k o) = ∑ c : Fin 64, x (ix2 k c) * w (ix3 (featRel c) (featFeat c) o) := by
  unfold k0_pay1
  refine (congrFun (shapeCast_self _ _) (ix2 k o)).trans ?_
  refine (Ideal.matmul_constant_zero_apply dot_S10000x64_S64x16_S10000x16_1_0_0_1_n_n none _ _ (ix2 k o)).trans ?_
  rw [← Equiv.sum_comp (contrEquiv1 dot_S10000x64_S64x16_S10000x16_1_0_0_1_n_n 64 rfl rfl).symm]
  refine Finset.sum_congr rfl fun c _ => ?_
  have hc := contrEquiv1_symm_val dot_S10000x64_S64x16_S10000x16_1_0_0_1_n_n 64 rfl rfl c
  have el : dot_S10000x64_S64x16_S10000x16_1_0_0_1_n_n.lhsIdx (ix2 k o) ((contrEquiv1 dot_S10000x64_S64x16_S10000x16_1_0_0_1_n_n 64 rfl rfl).symm c) = ix2 k c := funext fun d => Fin.ext (by
    match d with
    | ⟨0, _⟩ => exact feat_lhs_0 _ _
    | ⟨1, _⟩ => exact (feat_lhs_1 _ _).trans hc)
  have er : dot_S10000x64_S64x16_S10000x16_1_0_0_1_n_n.rhsIdx (ix2 k o) ((contrEquiv1 dot_S10000x64_S64x16_S10000x16_1_0_0_1_n_n 64 rfl rfl).symm c) = ix2 c o := funext fun d => Fin.ext (by
    match d with
    | ⟨0, _⟩ => exact (feat_rhs_0 _ _).trans hc
    | ⟨1, _⟩ => exact feat_rhs_1 _ _)
  rw [el, er]
  refine congrArg₂ (· * ·) (congrFun (shapeCast_self x _) (ix2 k c)) ?_
  refine (shapeCast_apply _ _ (ix2 c o) (ix3 (featFeat c) (featRel c) o) ?_).trans ?_
  · rw [Shape.rowMajor_val_three, Shape.rowMajor_val_two]
    show (c.val / 4 * 4 + c.val % 4) * 16 + o.val = c.val * 16 + o.val
    omega
  · exact transpose_apply [1, 0, 2] w _ (ix3 (featFeat c) (featRel c) o) (ix3 (featRel c) (featFeat c) o)
      (fun b => match b with | ⟨0, _⟩ => rfl | ⟨1, _⟩ => rfl | ⟨2, _⟩ => rfl)

end Cert.KernelIdeal.Payload

end
-- ==== Proof.Blocks.lean ====
/-
  The kernel's output array is the layer.

  The grid has 25 points; point `t` owns rows `400 t … 400 t + 399` of the adjacency and of the
  output. The flattened features and the weights are one block each, the whole array, at every
  point. The scratch buffer is written at the first point with the contracted features
  `B k o = ∑ c, x k (c / 4) (c % 4) * w (c % 4) (c / 4) o` and never again, so it holds `B` after every
  point (induction on the point); every point therefore leaves in its output block its rows of the
  adjacency times `B`, which is the layer's rows `400 t … 400 t + 399`. Every row lies in the block of
  point `row / 400`, so the blocks fill the array.
-/
import proofs.«123603_g5995774345542_cont_9to1_m_477_22_alg».proof.Proof.Gen.KernelIdeal.Value
import proofs.«123603_g5995774345542_cont_9to1_m_477_22_alg».proof.Proof.Pieces
import proofs.«123603_g5995774345542_cont_9to1_m_477_22_alg».proof.Proof.Payload
import proofs.«123603_g5995774345542_cont_9to1_m_477_22_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)
open scoped BigOperators

namespace Cert.KernelIdeal.Blocks

open Cert.KernelIdeal Cert.KernelIdeal.Gen Idealize.ShloMosaic.ValueIdx Cert.RelSum

variable (m : (ℓ : Loc nD τ sig) → Buf (Elt Ideal) ℓ) (ρ : Dev nD → PrngReg)

/-! ## The arrays the region finds -/

/-- The three arguments on core `c`. -/
abbrev adj (c : Dev nD) : FVec Ideal S10000x10000 .f32 := m ((c : Thread nD τ).loc main_arg0)
abbrev feats (c : Dev nD) : FVec Ideal S10000x16x4 .f32 := m ((c : Thread nD τ).loc main_arg1)
abbrev weights (c : Dev nD) : FVec Ideal S4x16x16 .f32 := m ((c : Thread nD τ).loc main_arg2)

/-- The flattened features the host wrote before the region: the node features reshaped to 10000 × 64. -/
theorem flat_eq (c : Dev nD) :
    (V m c main_v0 : S10000x64.Idx → EReal) = shapeCast S10000x64 (feats m c) shapeCasts_S10000x16x4_S10000x64 := by
  dsimp only [Gen.V, Gen.hostOps0]; after_results; rfl

/-- Entry `(k, c)` of the flattened features is entry `(k, c / 4, c % 4)` of the node features. -/
theorem flat_apply (c : Dev nD) (k : Fin 10000) (q : Fin 64) :
    (V m c main_v0 : S10000x64.Idx → EReal) (ix2 k q) = feats m c (ix3 k (featFeat q) (featRel q)) := by
  rw [flat_eq]
  refine shapeCast_apply _ _ (ix2 k q) (ix3 k (featFeat q) (featRel q)) ?_
  rw [Shape.rowMajor_val_three, Shape.rowMajor_val_two]
  show (k.val * 16 + q.val / 4) * 4 + q.val % 4 = k.val * 64 + q.val
  omega

/-! ## The blocks -/

/-- The printed index maps over the 25 points: the adjacency's and the output's block is the point's
    slab of rows; the flattened features and the weights are one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Row `y` of point `t`'s slab. -/
abbrev slabRow (t : Fin cfg0.N) (y : Fin 400) : Fin 10000 :=
  ⟨t.val * 400 + y.val, by have := lt_of_lt_of_eq t.isLt (show cfg0.N = 25 from N_0); have := y.isLt; omega⟩

/-- The adjacency's block at point `t` is its slab of rows. -/
theorem adj_block (c : Dev nD) (t : Fin cfg0.N) (y : Fin 400) (k : Fin 10000) :
    (iblk m c 0 t : S400x10000.Idx → EReal) (ix2 y k) = adj m c (ix2 (slabRow t y) k) := by
  obtain ⟨e0, e1, -⟩ := index_facts t
  unfold iblk
  rw [View.read_apply]
  show V m c main_arg0 (((cfg0.win 0).blk t).view.emb (ix2 y k)) = _
  rw [V_main_arg0]
  refine congrArg (adj m c) (funext fun d => Fin.ext ?_)
  match d with
  | ⟨0, _⟩ => show win0_0.index t (0 : Fin 2) * 400 + 1 * y.val = t.val * 400 + y.val; rw [e0]; omega
  | ⟨1, _⟩ => show win0_0.index t (1 : Fin 2) * 10000 + 1 * k.val = k.val; rw [e1]; omega

/-- The flattened features' block at any point is the whole array. -/
theorem flat_block (c : Dev nD) (t : Fin cfg0.N) (j : S10000x64.Idx) :
    (iblk m c 1 t : S10000x64.Idx → EReal) j = (V m c main_v0 : S10000x64.Idx → EReal) j := by
  obtain ⟨-, -, e0, e1, -⟩ := index_facts t
  unfold iblk
  rw [View.read_apply]
  show V m c main_v0 (((cfg0.win 1).blk t).view.emb j) = _
  refine congrArg (V m c main_v0) (funext fun d => Fin.ext ?_)
  match d with
  | ⟨0, _⟩ => show win0_1.index t (0 : Fin 2) * 10000 + 1 * (j 0).val = (j 0).val; rw [e0]; omega
  | ⟨1, _⟩ => show win0_1.index t (1 : Fin 2) * 64 + 1 * (j 1).val = (j 1).val; rw [e1]; omega

/-- The weights' block at any point is the whole array. -/
theorem weights_block (c : Dev nD) (t : Fin cfg0.N) (j : S4x16x16.Idx) :
    (iblk m c 2 t : S4x16x16.Idx → EReal) j = weights m c j := by
  obtain ⟨-, -, -, -, e0, e1, e2, -⟩ := index_facts t
  unfold iblk
  rw [View.read_apply]
  show V m c main_arg2 (((cfg0.win 2).blk t).view.emb j) = _
  rw [V_main_arg2]
  refine congrArg (weights m c) (funext fun d => Fin.ext ?_)
  match d with
  | ⟨0, _⟩ => show win0_2.index t (0 : Fin 3) * 4 + 1 * (j 0).val = (j 0).val; rw [e0]; omega
  | ⟨1, _⟩ => show win0_2.index t (1 : Fin 3) * 16 + 1 * (j 1).val = (j 1).val; rw [e1]; omega
  | ⟨2, _⟩ => show win0_2.index t (2 : Fin 3) * 16 + 1 * (j 2).val = (j 2).val; rw [e2]; omega

/-! ## The scratch buffer holds the contracted features after every point -/

/-- The first grid point. -/
abbrev first : Fin cfg0.N := ⟨0, by rw [show cfg0.N = 25 from N_0]; decide⟩

/-- What the first point stores into the scratch buffer. -/
abbrev stored (c : Dev nD) : FVec Ideal S10000x16 .f32 := k0_pay1 (F := Ideal) (iblk m c 2 first) (iblk m c 1 first)

/-- Its entry `(k, o)` is node `k`'s features contracted with the weights of output feature `o`. -/
theorem stored_apply (c : Dev nD) (k : Fin 10000) (o : Fin 16) :
    stored m c (ix2 k o) = contracted (feats m c) (weights m c) k o := by
  refine (Payload.features_product _ _ k o).trans ?_
  refine Finset.sum_congr rfl fun q _ => ?_
  rw [flat_block, weights_block, flat_apply]

/-- At a point where the body stores into the scratch buffer, it leaves there the first payload of the
    point's blocks of the weights and of the flattened features. -/
theorem first_scratch (c : Dev nD) (t : Fin cfg0.N) (h0 : t.val % 25 = 0) :
    (outsAt0 m c t.val t.isLt).2 = k0_pay1 (F := Ideal) (iblk m c 2 t) (iblk m c 1 t) := by
  rw [outsAt0_A m c t h0]
  dsimp only
  exact Pieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- … and in its output block the second payload of its rows of the adjacency and that first payload. -/
theorem first_block (c : Dev nD) (t : Fin cfg0.N) (h0 : t.val % 25 = 0) :
    (outsAt0 m c t.val t.isLt).1 = k0_pay2 (F := Ideal) (iblk m c 0 t) (k0_pay1 (F := Ideal) (iblk m c 2 t) (iblk m c 1 t)) := by
  rw [outsAt0_A m c t h0]
  dsimp only
  exact Pieces.block_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- At any other point the scratch buffer keeps what the point before left, -/
theorem later_scratch (c : Dev nD) (t : Fin cfg0.N) (h0 : ¬t.val % 25 = 0) :
    (outsAt0 m c t.val t.isLt).2 = (outsAt0 m c (t.val - 1) (Nat.lt_of_le_of_lt (Nat.sub_le _ _) t.isLt)).2 := by
  rw [outsAt0_B m c t h0]
  rfl

/-- … and the output block is left with the second payload of the point's rows of the adjacency and that. -/
theorem later_block (c : Dev nD) (t : Fin cfg0.N) (h0 : ¬t.val % 25 = 0) :
    (outsAt0 m c t.val t.isLt).1
      = k0_pay2 (F := Ideal) (iblk m c 0 t) (outsAt0 m c (t.val - 1) (Nat.lt_of_le_of_lt (Nat.sub_le _ _) t.isLt)).2 := by
  rw [outsAt0_B m c t h0]
  dsimp only
  exact Pieces.block_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
    (outsAt0 m c (t.val - 1) (Nat.lt_of_le_of_lt (Nat.sub_le _ _) t.isLt)).2

/-- The scratch buffer after point `n` holds what the first point stored. -/
theorem scratch_eq (c : Dev nD) : ∀ (n : ℕ) (h : n < cfg0.N), (outsAt0 m c n h).2 = stored m c
  | 0, h => first_scratch m c ⟨0, h⟩ (Nat.zero_mod _)
  | n + 1, h => by
    have hN : cfg0.N = 25 := N_0
    have hB : ¬(⟨n + 1, h⟩ : Fin cfg0.N).val % 25 = 0 := by dsimp only; omega
    exact (later_scratch m c ⟨n + 1, h⟩ hB).trans (scratch_eq c n (Nat.lt_of_succ_lt h))

/-- The output block after point `t` is the point's rows of the adjacency times what the scratch buffer holds. -/
theorem block_eq (c : Dev nD) (t : Fin cfg0.N) :
    (outsAt0 m c t.val t.isLt).1 = k0_pay2 (F := Ideal) (iblk m c 0 t) (stored m c) := by
  have hN : cfg0.N = 25 := N_0
  by_cases h0 : t.val % 25 = 0
  · rw [first_block m c t h0, ← first_scratch m c t h0, scratch_eq m c t.val t.isLt]
  · rw [later_block m c t h0, scratch_eq m c (t.val - 1) _]

/-- Entry `(y, o)` of the output block after point `t` is the layer at row `400 t + y`. -/
theorem block_apply (c : Dev nD) (t : Fin cfg0.N) (y : Fin 400) (o : Fin 16) :
    (outsAt0 m c t.val t.isLt).1 (ix2 y o) = layerAt (adj m c) (feats m c) (weights m c) (slabRow t y) o := by
  rw [block_eq]
  refine (Payload.rows_product _ _ y o).trans ?_
  refine Finset.sum_congr rfl fun k _ => ?_
  rw [adj_block, stored_apply]

/-! ## From the blocks to the array -/

/-- What point `t` writes back is block `t` of the layer. -/
theorem flushed_eq (c : Dev nD) (t : Fin cfg0.N) :
    (dats m 0 c).flushed 3 t
      = ((cfg0.win 3).blk t).view.read (Elt Ideal) (layer (adj m c) (feats m c) (weights m c)) := by
  obtain ⟨-, -, -, -, -, -, -, e0, e1⟩ := index_facts t
  rw [Value.flushed3]
  funext j
  obtain ⟨y, o, rfl⟩ : ∃ (y : Fin 400) (o : Fin 16), j = ix2 y o := ⟨j 0, j 1, eq_ix2 j⟩
  show (outsAt0 m c t.val t.isLt).1 (ix2 y o) = layer (adj m c) (feats m c) (weights m c) (((cfg0.win 3).blk t).view.emb (ix2 y o))
  rw [block_apply]
  refine (layer_apply _ _ _ _ (slabRow t y) o ?_ ?_).symm
  · show win0_3.index t (0 : Fin 2) * 400 + 1 * y.val = t.val * 400 + y.val; rw [e0]; omega
  · show win0_3.index t (1 : Fin 2) * 16 + 1 * o.val = o.val; rw [e1]; omega

/-- An index of the output array is in point `t`'s block iff each coordinate is in the block's range. -/
theorem mem_block (t : Fin cfg0.N) (i : S10000x16.Idx) :
    i ∈ ((cfg0.win 3).blk t).view.set ↔ ∀ a : Fin 2, win0_3.index t a * S400x16.size a ≤ (i a).val ∧ (i a).val < win0_3.index t a * S400x16.size a + S400x16.size a := by
  show i ∈ ((View.whole main_v1).slice (win0_3.rect t)).set ↔ _
  rw [View.set_slice_whole, Rect.mem_set_unit]
  exact Iff.rfl

/-- Every index of the output array is in the block of the point that owns its row. -/
theorem covered (i : S10000x16.Idx) : ∃ t : Fin cfg0.N, (cfg0.win 3).flush t = true ∧ i ∈ ((cfg0.win 3).blk t).view.set := by
  have hi0 : (i 0).val < 10000 := (i 0).isLt
  have hi1 : (i 1).val < 16 := (i 1).isLt
  have hN : cfg0.N = 25 := N_0
  let t : Fin cfg0.N := ⟨(i 0).val / 400, by rw [hN]; omega⟩
  obtain ⟨-, -, -, -, -, -, -, e0, e1⟩ := index_facts t
  have et : t.val = (i 0).val / 400 := rfl
  refine ⟨t, flush0_3 t, ?_⟩
  rw [mem_block]
  intro a
  match a with
  | ⟨0, _⟩ => show win0_3.index t (0 : Fin 2) * 400 ≤ (i 0).val ∧ (i 0).val < win0_3.index t (0 : Fin 2) * 400 + 400; rw [e0, et]; omega
  | ⟨1, _⟩ => show win0_3.index t (1 : Fin 2) * 16 ≤ (i 1).val ∧ (i 1).val < win0_3.index t (1 : Fin 2) * 16 + 16; rw [e1]; omega

/-- THE OUTPUT ARRAY after the run is the layer of the three arguments. -/
theorem final (c : Dev nD) : (dats m 0 c).arrAt 3 cfg0.N = layer (adj m c) (feats m c) (weights m c) :=
  (dats m 0 c).arrAt_eq_of_cover 3 (layer (adj m c) (feats m c) (weights m c)) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = layer (adj m c) (feats m c) (weights m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefValue.lean ====
/-
  The reference, read at an index, and why it is the layer.

  The reference slices relation `r` out of the node features, multiplies the adjacency by it — the
  aggregated feature `∑ k, a n k * x k i r` at node `n`, input feature `i` —, joins the four results
  side by side, so that column `c` of the joined array is relation `c / 16`, input feature `c % 16`,
  and multiplies by the weights flattened the same way (row `c` is relation `c / 16`, input
  feature `c % 16`). Entry `(n, o)` of the result is therefore

      ∑ c, (∑ k, a n k * x k (c % 16) (c / 16)) * w (c / 16) (c % 16) o,

  which for real arguments is the layer (the law of Algebra.lean).
-/
import proofs.«123603_g5995774345542_cont_9to1_m_477_22_alg».proof.Proof.Gen.ReferenceIdeal.Read
import proofs.«123603_g5995774345542_cont_9to1_m_477_22_alg».proof.Proof.Spec
import Idealize.ShloMosaic.Lib.Pipeline.Value
import Idealize.ShloMosaic.Lib.ValueIdx

noncomputable section

open Idealize.ShloMosaic Idealize.ShloMosaic.TcCoe Idealize.SL.Sem
open scoped BigOperators

namespace Cert.ReferenceIdeal.Layer

open Cert.ReferenceIdeal Cert.ReferenceIdeal.Gen Cert.ReferenceIdeal.Read Idealize.ShloMosaic.ValueIdx Cert.RelSum

/-- Relation `r`'s aggregated feature at node `n`, input feature `i`. -/
def aggregatedAt (A : FVec Ideal S10000x10000 .f32) (X : FVec Ideal S10000x16x4 .f32) (r : Fin 4) (n : Fin 10000) (i : Fin 16) : EReal :=
  ∑ k : Fin 10000, A (ix2 n k) * X (ix3 k i r)

/-- Relation `r`'s aggregated features, as an array. -/
def aggregated (A : FVec Ideal S10000x10000 .f32) (X : FVec Ideal S10000x16x4 .f32) (r : Fin 4) : FVec Ideal S10000x16 .f32 :=
  fun j => aggregatedAt A X r (j 0) (j 1)

/-- An index of the adjacency with coordinates `n`, `k`. -/
theorem row_idx (n k : Fin 10000) (j : S10000x10000.Idx) (h0 : (j 0).val = n.val) (h1 : (j 1).val = k.val) : j = ix2 n k :=
  funext fun d => Fin.ext (by match d with | ⟨0, _⟩ => exact h0 | ⟨1, _⟩ => exact h1)

/-- The node-feature index a slice then a reshape reach from `(k, i)`: row-major position `k * 16 + i` of the
    10000 × 16 × 1 slice is its entry `(k, i, 0)`, entry `(k, i, r)` of the features. -/
theorem slice_idx (r : Fin 4) (i : Fin 16) (k : Fin 10000) (j : S10000x16x4.Idx)
    (h0 : (j 0).val = (k.val * 16 + i.val) / 16) (h1 : (j 1).val = (k.val * 16 + i.val) / 1 % 16) (h2 : (j 2).val = r.val) :
    j = ix3 k i r :=
  funext fun d => Fin.ext (by
    have hi : i.val < 16 := i.isLt
    match d with
    | ⟨0, _⟩ => show (j 0).val = k.val; omega
    | ⟨1, _⟩ => show (j 1).val = i.val; omega
    | ⟨2, _⟩ => exact h2)

theorem aggregated_0 (A : FVec Ideal S10000x10000 .f32) (X : FVec Ideal S10000x16x4 .f32) :
    val_main_v3 (F := Ideal) A X = aggregated A X 0 := by
  funext j
  obtain ⟨n, i, rfl⟩ : ∃ (n : Fin 10000) (i : Fin 16), j = ix2 n i := ⟨j 0, j 1, eq_ix2 j⟩
  rw [val_main_v3_apply]
  show _ = ∑ k : Fin 10000, A (ix2 n k) * X (ix3 k i 0)
  refine Finset.sum_congr rfl fun k _ => ?_
  rw [val_main_v2_apply, val_main_v1_apply]
  exact congrArg₂ (· * ·) (congrArg A (row_idx n k _ rfl rfl)) (congrArg X (slice_idx 0 i k _ rfl rfl rfl))

theorem aggregated_1 (A : FVec Ideal S10000x10000 .f32) (X : FVec Ideal S10000x16x4 .f32) :
    val_main_v6 (F := Ideal) A X = aggregated A X 1 := by
  funext j
  obtain ⟨n, i, rfl⟩ : ∃ (n : Fin 10000) (i : Fin 16), j = ix2 n i := ⟨j 0, j 1, eq_ix2 j⟩
  rw [val_main_v6_apply]
  show _ = ∑ k : Fin 10000, A (ix2 n k) * X (ix3 k i 1)
  refine Finset.sum_congr rfl fun k _ => ?_
  rw [val_main_v5_apply, val_main_v4_apply]
  exact congrArg₂ (· * ·) (congrArg A (row_idx n k _ rfl rfl)) (congrArg X (slice_idx 1 i k _ rfl rfl rfl))

theorem aggregated_2 (A : FVec Ideal S10000x10000 .f32) (X : FVec Ideal S10000x16x4 .f32) :
    val_main_v9 (F := Ideal) A X = aggregated A X 2 := by
  funext j
  obtain ⟨n, i, rfl⟩ : ∃ (n : Fin 10000) (i : Fin 16), j = ix2 n i := ⟨j 0, j 1, eq_ix2 j⟩
  rw [val_main_v9_apply]
  show _ = ∑ k : Fin 10000, A (ix2 n k) * X (ix3 k i 2)
  refine Finset.sum_congr rfl fun k _ => ?_
  rw [val_main_v8_apply, val_main_v7_apply]
  exact congrArg₂ (· * ·) (congrArg A (row_idx n k _ rfl rfl)) (congrArg X (slice_idx 2 i k _ rfl rfl rfl))

theorem aggregated_3 (A : FVec Ideal S10000x10000 .f32) (X : FVec Ideal S10000x16x4 .f32) :
    val_main_v12 (F := Ideal) A X = aggregated A X 3 := by
  funext j
  obtain ⟨n, i, rfl⟩ : ∃ (n : Fin 10000) (i : Fin 16), j = ix2 n i := ⟨j 0, j 1, eq_ix2 j⟩
  rw [val_main_v12_apply]
  show _ = ∑ k : Fin 10000, A (ix2 n k) * X (ix3 k i 3)
  refine Finset.sum_congr rfl fun k _ => ?_
  rw [val_main_v11_apply, val_main_v10_apply]
  exact congrArg₂ (· * ·) (congrArg A (row_idx n k _ rfl rfl)) (congrArg X (slice_idx 3 i k _ rfl rfl rfl))

/-- The four aggregated arrays, by relation. -/
def pieces (A : FVec Ideal S10000x10000 .f32) (X : FVec Ideal S10000x16x4 .f32) : Fin 4 → (S10000x16.Idx → EReal) :=
  fun r => aggregated A X r

/-- The joined array is the join of the four aggregated arrays in the order of the relations. -/
theorem joined_eq (A : FVec Ideal S10000x10000 .f32) (X : FVec Ideal S10000x16x4 .f32) :
    val_main_v13 (F := Ideal) A X
      = concatenate S10000x64 1 (List.ofFn fun r : Fin 4 => (⟨S10000x16, pieces A X r⟩ : (s : Shape) × (s.Idx → EReal)))
          concatenates_S10000x16_S10000x16_S10000x16_S10000x16_S10000x64_d1 := by
  unfold val_main_v13
  rw [aggregated_0, aggregated_1, aggregated_2, aggregated_3]
  rfl

/-- Column `c` of the joined array is relation `c / 16`, input feature `c % 16`. -/
theorem joined_apply (A : FVec Ideal S10000x10000 .f32) (X : FVec Ideal S10000x16x4 .f32) (n : Fin 10000) (c : Fin 64) :
    val_main_v13 (F := Ideal) A X (ix2 n c) = aggregatedAt A X (relRel c) n (relFeat c) := by
  rw [joined_eq]
  exact concatenate_ofFn_apply (t := S10000x64) (s₁ := S10000x16) 1 (pieces A X)
    concatenates_S10000x16_S10000x16_S10000x16_S10000x16_S10000x64_d1 rfl 16 rfl (ix2 n c) (relRel c) rfl
    (ix2 n (relFeat c)) rfl (fun b hb => by
      match b with
      | ⟨0, _⟩ => rfl
      | ⟨1, _⟩ => exact absurd rfl hb)

/-- The weights' index a reshape reaches from row `c`, column `o` of the flattened weights. -/
theorem weight_idx (c : Fin 64) (o : Fin 16) (j : S4x16x16.Idx)
    (h0 : (j 0).val = (c.val * 16 + o.val) / 256) (h1 : (j 1).val = (c.val * 16 + o.val) / 16 % 16)
    (h2 : (j 2).val = (c.val * 16 + o.val) % 16) : j = ix3 (relRel c) (relFeat c) o :=
  funext fun d => Fin.ext (by
    have ho : o.val < 16 := o.isLt
    match d with
    | ⟨0, _⟩ => show (j 0).val = c.val / 16; omega
    | ⟨1, _⟩ => show (j 1).val = c.val % 16; omega
    | ⟨2, _⟩ => show (j 2).val = o.val; omega)

/-- THE REFERENCE AT AN INDEX: aggregate each column, then contract the 64 columns with the weights. -/
theorem result_apply (A : FVec Ideal S10000x10000 .f32) (X : FVec Ideal S10000x16x4 .f32) (W : FVec Ideal S4x16x16 .f32)
    (n : Fin 10000) (o : Fin 16) :
    val_main_v14 (F := Ideal) A X W (ix2 n o)
      = ∑ c : Fin 64, (∑ k : Fin 10000, A (ix2 n k) * X (ix3 k (relFeat c) (relRel c))) * W (ix3 (relRel c) (relFeat c) o) := by
  rw [val_main_v14_apply]
  refine Finset.sum_congr rfl fun c _ => ?_
  rw [val_main_v0_apply]
  refine congrArg₂ (· * ·) ?_ (congrArg W (weight_idx c o _ rfl rfl rfl))
  exact (congrArg (val_main_v13 (F := Ideal) A X) (funext fun d => Fin.ext (by
    match d with | ⟨0, _⟩ => rfl | ⟨1, _⟩ => rfl) : lidx_main_v14 (ix2 n o) c = ix2 n c)).trans (joined_apply A X n c)

/-- THE REFERENCE IS THE LAYER when every entry of the three arguments is a real number. -/
theorem result_eq_layer (A : FVec Ideal S10000x10000 .f32) (X : FVec Ideal S10000x16x4 .f32) (W : FVec Ideal S4x16x16 .f32)
    (hA : ∀ i, ∃ r : ℝ, A i = r) (hX : ∀ i, ∃ r : ℝ, X i = r) (hW : ∀ i, ∃ r : ℝ, W i = r) :
    val_main_v14 (F := Ideal) A X W = layer A X W := by
  funext j
  obtain ⟨n, o, rfl⟩ : ∃ (n : Fin 10000) (o : Fin 16), j = ix2 n o := ⟨j 0, j 1, eq_ix2 j⟩
  rw [result_apply, layer_apply A X W (ix2 n o) n o rfl rfl]
  exact aggregate_contract (fun k => A (ix2 n k)) (fun k i r => X (ix3 k i r)) (fun r i => W (ix3 r i o))
    (fun k => hA _) (fun k i r => hX _) (fun r i => hW _)

end Cert.ReferenceIdeal.Layer

end
-- ==== Proof.Finite.lean ====
/-
  What the precondition gives: every entry of the three arguments is a real number.

  The precondition is the conjunction, over the three arrays, of "every entry's absolute value is
  below the word of +∞". At the ideal values an entry is an extended real, its absolute value is
  `max x (-x)`, and that is below `⊤` exactly when `x` is neither infinity.
-/
import proofs.«123603_g5995774345542_cont_9to1_m_477_22_alg».proof.Pre_finite_inputs
import Idealize.ShloMosaic.PureOps.Ideal
import Idealize.ShloMosaic.Lib.ReduceAll
import Idealize.ShloMosaic.Lib.ValueIdx

noncomputable section

open Idealize.ShloMosaic

namespace Cert.Pre_finite_inputs.Finite

open Cert.Pre_finite_inputs

/-- The scalar shape has one index. -/
instance : Subsingleton S_.Idx := ⟨fun a b => funext fun d => d.elim0⟩

/-- The word the entries are compared against is +∞. -/
theorem inf_word : Ideal.ofBits .f32 0x7F800000#32 = (⊤ : EReal) := by
  simp [Ideal.ofBits, Ideal.ieee]

/-- An extended real whose absolute value compares below the +∞ word is a real. -/
theorem real_of_abs_lt_inf (x : EReal)
    (h : FloatOps.cmpf (F := Ideal) (φ := .f32) .olt (FloatOps.hostAbsf (F := Ideal) (φ := .f32) x) (Ideal.ofBits .f32 0x7F800000#32) = 1#1) :
    ∃ r : ℝ, x = r := by
  rw [inf_word] at h
  have hlt : max x (-x) < ⊤ := by
    by_contra hn
    have : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [this] at h
    exact absurd h (by decide)
  induction x using EReal.rec with
  | bot => simp at hlt
  | coe r => exact ⟨r, rfl⟩
  | top => simp at hlt

variable [hP : Cert.Pre_finite_inputs.Facts]

/-- If the precondition evaluates to true on three arrays of extended reals, all their entries are reals. -/
theorem reals_of_pre (a0 : FVec Ideal S10000x10000 .f32) (a1 : FVec Ideal S10000x16x4 .f32) (a2 : FVec Ideal S4x16x16 .f32)
    (h : Cert.Pre_finite_inputs.fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [Cert.Pre_finite_inputs.fn] at h0
  obtain ⟨h01, hW⟩ := IntOp.andi_eq_one.1 h0
  obtain ⟨hA, hX⟩ := IntOp.andi_eq_one.1 h01
  exact ⟨fun i => real_of_abs_lt_inf _ (Host.reduce_andi_all _ _ _ _ _ hA i),
    fun i => real_of_abs_lt_inf _ (Host.reduce_andi_all _ _ _ _ _ hX i),
    fun i => real_of_abs_lt_inf _ (Host.reduce_andi_all _ _ _ _ _ hW i)⟩

end Cert.Pre_finite_inputs.Finite

end
-- ==== Proof.lean ====
/-
  A relational graph-convolution layer without bases or bias: with `a` the dense 10000 × 10000
  adjacency, `x` the node features (node, input feature, relation) and `w` the weights (relation,
  input feature, output feature),

      out n o = ∑ over relations r and input features i of (∑ k, a n k * x k i r) * w r i o.

  The reference computes it as written: four products of the adjacency with one relation's features,
  joined side by side, times the flattened weights. The kernel uses that the sums can be taken in
  the other order, out n o = ∑ k, a n k * B k o with B k o = ∑ (i, r), x k i r * w r i o: it forms `B`
  once, at the first grid point, keeps it in a scratch buffer, and streams 400-row slabs of the
  adjacency against it, so the adjacency is read once instead of four times.

  Over the extended reals the two orders agree when every entry is a real number (products
  distribute over finite sums of reals, and finite sums commute), and the precondition says exactly
  that of the three arguments; with an infinite entry the extended reals do not distribute, which
  is why the precondition is used.

  The modules: Algebra (the law, over the reals, and the two orders of the 64 feature-relation
  pairs), Spec (the layer as one function of the arguments), Pieces and Payload (what a grid point's
  body leaves, and the body's two matrix products at an index), Blocks (the kernel's output array
  is the layer: the scratch buffer holds `B` after every point, each point writes its slab, the
  slabs fill the array), RefValue (the reference at an index, and that it is the layer for real
  arguments), Finite (the precondition makes every entry real). The frames of the two kernel
  programs and the reference's run are the generated modules'.
-/
import proofs.«123603_g5995774345542_cont_9to1_m_477_22_alg».proof.Defs
import proofs.«123603_g5995774345542_cont_9to1_m_477_22_alg».proof.Proof.Gen.Kernel
import proofs.«123603_g5995774345542_cont_9to1_m_477_22_alg».proof.Proof.Gen.Kernel.Frame
import proofs.«123603_g5995774345542_cont_9to1_m_477_22_alg».proof.Proof.Gen.KernelIdeal
import proofs.«123603_g5995774345542_cont_9to1_m_477_22_alg».proof.Proof.Gen.KernelIdeal.Frame
import proofs.«123603_g5995774345542_cont_9to1_m_477_22_alg».proof.Proof.Gen.KernelIdeal.Value
import proofs.«123603_g5995774345542_cont_9to1_m_477_22_alg».proof.Proof.Gen.ReferenceIdeal
import proofs.«123603_g5995774345542_cont_9to1_m_477_22_alg».proof.Proof.Gen.ReferenceIdeal.Run
import proofs.«123603_g5995774345542_cont_9to1_m_477_22_alg».proof.Proof.Gen.ReferenceIdeal.Read
import proofs.«123603_g5995774345542_cont_9to1_m_477_22_alg».proof.Proof.Gen.Pre_finite_inputs
import proofs.«123603_g5995774345542_cont_9to1_m_477_22_alg».proof.Proof.Blocks
import proofs.«123603_g5995774345542_cont_9to1_m_477_22_alg».proof.Proof.RefValue
import proofs.«123603_g5995774345542_cont_9to1_m_477_22_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel. -/
theorem preserves : Cert.preserves_Kernel_KernelIdeal := trivial

/-- Both programs end with the layer of the arguments in their result: the kernel for any extended
    reals (its output array is the layer by construction of the blocks), the reference because the
    precondition makes every entry of the arguments a real, where its order of summation is the
    layer's. -/
theorem algebraic : Cert.algebraic_KernelIdeal_ReferenceIdeal := by
  intro m ρ m' ρ' hpre hagree
  refine ⟨fun c => Cert.RelSum.layer (Cert.KernelIdeal.Blocks.adj m c) (Cert.KernelIdeal.Blocks.feats m c)
    (Cert.KernelIdeal.Blocks.weights m c), Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hA, hX, hW⟩ := Cert.Pre_finite_inputs.Finite.reals_of_pre _ _ _ (hpre c)
  exact (Cert.ReferenceIdeal.Read.val_main_v14_eq _ _ _).trans
    (Cert.ReferenceIdeal.Layer.result_eq_layer _ _ _ hA hX hW)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
